-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S1024x256 : Shape := ⟨2, ![1024, 256]⟩
abbrev S1024x1024 : Shape := ⟨2, ![1024, 1024]⟩
abbrev S1024 : Shape := ⟨1, ![1024]⟩
abbrev S2x1024 : Shape := ⟨2, ![2, 1024]⟩
abbrev S2 : Shape := ⟨1, ![2]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S2x1024 : S_.BroadcastsInDim S2x1024 (![] : Fin 0 → Fin S2x1024.rank)
  reducesTo_S2x1024_S_d0_1 : S2x1024.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg7 : FVec F S2 .f32) (main_v33 : IVec S_ 1) : IVec S_ 1 :=
  let main_v34 : FVec F S2 .f32 := Host.absf main_arg7
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  main_v38

def fn_part1 {F : FTy → Type} [FloatOps F] (main_arg4 : FVec F S1024x1024 .f32) (main_arg5 : FVec F S1024 .f32) (main_arg6 : FVec F S2x1024 .f32) (main_arg7 : FVec F S2 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S2x1024 .f32 := Host.absf main_arg6
  let main_cst_10 : FVec F S_ .f32 := constant S_ .f32 0x7F800000#32
  let main_v30 : FVec F S2x1024 .f32 := broadcastInDim S2x1024 ![] bcast_S_S2x1024 main_cst_10
  let main_v31 : IVec S2x1024 1 := cmpf .olt main_v29 main_v30
  let main_c_11 : IVec S_ 1 := constantI S_ 1 1#1
  let main_v32 : IVec S_ 1 := (fun x v => Host.reduce IntOp.andi x v reducesTo_S2x1024_S_d0_1 h_S_) main_v31 main_c_11
  let main_v33 : IVec S_ 1 := andi main_v28 main_v32
  fn_part2 (F := F) main_arg7 main_v33

def fn {F : FTy → Type} [FloatOps F] (main_arg0 : FVec F S65536x256 .f32) (main_arg1 : FVec F S1024x256 .f32) (main_arg2 : FVec F S1024x1024 .f32) (main_arg3 : FVec F S1024 .f32) (main_arg4 : FVec F S1024x1024 .f32) (main_arg5 : FVec F S1024 .f32) (main_arg6 : FVec F S2x1024 .f32) (main_arg7 : FVec F S2 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S65536x256 : Shape := ⟨2, ![65536, 256]⟩
abbrev S1024x256 : Shape := ⟨2, ![1024, 256]⟩
abbrev S1024x1024 : Shape := ⟨2, ![1024, 1024]⟩
abbrev S1024 : Shape := ⟨1, ![1024]⟩
abbrev S2x1024 : Shape := ⟨2, ![2, 1024]⟩
abbrev S2 : Shape := ⟨1, ![2]⟩
abbrev S256x1024 : Shape := ⟨2, ![256, 1024]⟩
abbrev S_ : Shape := ⟨0, ![]⟩
abbrev S1x1024 : Shape := ⟨2, ![1, 1024]⟩
abbrev S1024x2 : Shape := ⟨2, ![1024, 2]⟩
abbrev S1x2 : Shape := ⟨2, ![1, 2]⟩
abbrev S65536x2 : Shape := ⟨2, ![65536, 2]⟩
abbrev S1024x1 : Shape := ⟨2, ![1024, 1]⟩

abbrev nBuf : Space → Nat
  | .hbm => 24
  | .vmem => 12
  | .smem => 0
  | _ => 0

abbrev bufTy : (tb : Table) → Fin (tcTables nBuf tb) → BufTy
  | .hbm, ⟨0, _⟩ => ⟨S65536x256, .f32⟩
  | .hbm, ⟨1, _⟩ => ⟨S1024x256, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S2x1024, .f32⟩
  | .hbm, ⟨7, _⟩ => ⟨S2, .f32⟩
  | .hbm, ⟨8, _⟩ => ⟨S256x1024, .f32⟩
  | .hbm, ⟨9, _⟩ => ⟨S256x1024, .bf16⟩
  | .hbm, ⟨10, _⟩ => ⟨S1024x256, .f32⟩
  | .hbm, ⟨11, _⟩ => ⟨S_, .f32⟩
  | .hbm, ⟨12, _⟩ => ⟨S1024, .f32⟩
  | .hbm, ⟨13, _⟩ => ⟨S1x1024, .f32⟩
  | .hbm, ⟨14, _⟩ => ⟨S1024x1024, .f32⟩
  | .hbm, ⟨15, _⟩ => ⟨S1024x1024, .bf16⟩
  | .hbm, ⟨16, _⟩ => ⟨S1024x1024, .f32⟩
  | .hbm, ⟨17, _⟩ => ⟨S1024x1024, .bf16⟩
  | .hbm, ⟨18, _⟩ => ⟨S1024x2, .f32⟩
  | .hbm, ⟨19, _⟩ => ⟨S1024x2, .bf16⟩
  | .hbm, ⟨20, _⟩ => ⟨S1x1024, .f32⟩
  | .hbm, ⟨21, _⟩ => ⟨S1x1024, .f32⟩
  | .hbm, ⟨22, _⟩ => ⟨S1x2, .f32⟩
  | .hbm, ⟨23, _⟩ => ⟨S65536x2, .f32⟩
  | .local _ .vmem, ⟨0, _⟩ => ⟨S1024x256, .f32⟩
  | .local _ .vmem, ⟨1, _⟩ => ⟨S1024x256, .f32⟩
  | .local _ .vmem, ⟨2, _⟩ => ⟨S256x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1024x2, .bf16⟩
  | .local _ .vmem, ⟨9, _⟩ => ⟨S1x2, .f32⟩
  | .local _ .vmem, ⟨10, _⟩ => ⟨S1024x2, .f32⟩
  | .local _ .vmem, ⟨11, _⟩ => ⟨S1024x2, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x2 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S1024x256_S256x1024_1_0 : S1024x256.Transposes [1, 0] S256x1024
  bitsLt_bf16_f32 : FTy.bits .bf16 < FTy.bits .f32
  reducesTo_S1024x256_S1024_d1 : S1024x256.ReducesTo [1] S1024
  h_S_ : 0 < S_.numel
  shapeCasts_S1024_S1x1024 : S1024.ShapeCasts S1x1024
  transposes_S1024x1024_S1024x1024_1_0 : S1024x1024.Transposes [1, 0] S1024x1024
  transposes_S2x1024_S1024x2_1_0 : S2x1024.Transposes [1, 0] S1024x2
  shapeCasts_S2_S1x2 : S2.ShapeCasts S1x2
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2_S1024x2_0_0 : ∀ a, (![0, 0] : Fin 2 → Nat) a + S1024x2.size a ≤ S1024x2.size a
  h_S1024x2 : 0 < S1024x2.numel
  shapeCasts_S1024x2_S1024x2 : S1024x2.ShapeCasts S1024x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1024x2 : S1x2.Broadcasts S1024x2
  dot_S1024x256_S256x1024_S1024x1024_1_0_0_1_n_n_wf : DotDims.WF S1024x256 S256x1024 S1024x1024 [1] [0] [0] [1] [] []
  dot_S1024x1024_S1024x1024_S1024x1024_1_0_0_1_n_n_wf : DotDims.WF S1024x1024 S1024x1024 S1024x1024 [1] [0] [0] [1] [] []
  dot_S1024x1024_S1024x2_S1024x2_1_0_0_1_n_n_wf : DotDims.WF S1024x1024 S1024x2 S1024x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S65536x256.size a
  hwx0_0 : ∀ i : grid0.Coords, EltTy.bits .f32 = 32 ∨ (Rect.block (s := S65536x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .bf16 = 32 ∨ (Rect.block (s := S256x1024) S256x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x2.size a ≤ S1024x2.size a
  hwx0_7 : ∀ i : grid0.Coords, EltTy.bits .bf16 = 32 ∨ (Rect.block (s := S1024x2) S1024x2.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2.size a ≤ S1x2.size a
  hwx0_8 : ∀ i : grid0.Coords, EltTy.bits .f32 = 32 ∨ (Rect.block (s := S1x2) S1x2.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x2.size a ≤ S65536x2.size a
  hwx0_9 : ∀ i : grid0.Coords, EltTy.bits .f32 = 32 ∨ (Rect.block (s := S65536x2) S1024x2.size (cc0_transform_9 i) (hinb0_9 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x2_S1024x2_1_0_0_1_n_n : DotDims S1024x1024 S1024x2 S1024x2 where
  lhsContracting := [1]
  rhsContracting := [0]
  lhsNonContracting := [0]
  rhsNonContracting := [1]
  lhsBatch := []
  rhsBatch := []
  wf := dot_S1024x1024_S1024x2_S1024x2_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1024x2.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S1x2.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S1024x2.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S65536x256 : Shape := ⟨2, ![65536, 256]⟩
abbrev S1024x256 : Shape := ⟨2, ![1024, 256]⟩
abbrev S1024x1024 : Shape := ⟨2, ![1024, 1024]⟩
abbrev S1024 : Shape := ⟨1, ![1024]⟩
abbrev S2x1024 : Shape := ⟨2, ![2, 1024]⟩
abbrev S2 : Shape := ⟨1, ![2]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x1024 : Shape := ⟨2, ![65536, 1024]⟩
abbrev S65536x2 : Shape := ⟨2, ![65536, 2]⟩
abbrev S1x2 : Shape := ⟨2, ![1, 2]⟩

abbrev nBuf : Space → Nat
  | .hbm => 46
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S1024x256, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S2x1024, .f32⟩
  | .hbm, ⟨7, _⟩ => ⟨S2, .f32⟩
  | .hbm, ⟨8, _⟩ => ⟨S65536x256, .f32⟩
  | .hbm, ⟨9, _⟩ => ⟨S_, .f32⟩
  | .hbm, ⟨10, _⟩ => ⟨S65536, .f32⟩
  | .hbm, ⟨11, _⟩ => ⟨S65536x1, .f32⟩
  | .hbm, ⟨12, _⟩ => ⟨S1024x256, .f32⟩
  | .hbm, ⟨13, _⟩ => ⟨S_, .f32⟩
  | .hbm, ⟨14, _⟩ => ⟨S1024, .f32⟩
  | .hbm, ⟨15, _⟩ => ⟨S1x1024, .f32⟩
  | .hbm, ⟨16, _⟩ => ⟨S65536x1024, .f32⟩
  | .hbm, ⟨17, _⟩ => ⟨S65536x1024, .f32⟩
  | .hbm, ⟨18, _⟩ => ⟨S65536x1024, .f32⟩
  | .hbm, ⟨19, _⟩ => ⟨S65536x1024, .f32⟩
  | .hbm, ⟨20, _⟩ => ⟨S_, .f32⟩
  | .hbm, ⟨21, _⟩ => ⟨S65536x1024, .f32⟩
  | .hbm, ⟨22, _⟩ => ⟨S65536x1024, .f32⟩
  | .hbm, ⟨23, _⟩ => ⟨S65536x1024, .f32⟩
  | .hbm, ⟨24, _⟩ => ⟨S_, .f32⟩
  | .hbm, ⟨25, _⟩ => ⟨S65536x1024, .f32⟩
  | .hbm, ⟨26, _⟩ => ⟨S65536x1024, .f32⟩
  | .hbm, ⟨27, _⟩ => ⟨S65536x1024, .f32⟩
  | .hbm, ⟨28, _⟩ => ⟨S65536x1024, .f32⟩
  | .hbm, ⟨29, _⟩ => ⟨S1x1024, .f32⟩
  | .hbm, ⟨30, _⟩ => ⟨S65536x1024, .f32⟩
  | .hbm, ⟨31, _⟩ => ⟨S65536x1024, .f32⟩
  | .hbm, ⟨32, _⟩ => ⟨S_, .f32⟩
  | .hbm, ⟨33, _⟩ => ⟨S65536x1024, .f32⟩
  | .hbm, ⟨34, _⟩ => ⟨S65536x1024, .f32⟩
  | .hbm, ⟨35, _⟩ => ⟨S65536x1024, .f32⟩
  | .hbm, ⟨36, _⟩ => ⟨S1x1024, .f32⟩
  | .hbm, ⟨37, _⟩ => ⟨S65536x1024, .f32⟩
  | .hbm, ⟨38, _⟩ => ⟨S65536x1024, .f32⟩
  | .hbm, ⟨39, _⟩ => ⟨S_, .f32⟩
  | .hbm, ⟨40, _⟩ => ⟨S65536x1024, .f32⟩
  | .hbm, ⟨41, _⟩ => ⟨S65536x1024, .f32⟩
  | .hbm, ⟨42, _⟩ => ⟨S65536x2, .f32⟩
  | .hbm, ⟨43, _⟩ => ⟨S1x2, .f32⟩
  | .hbm, ⟨44, _⟩ => ⟨S65536x2, .f32⟩
  | .hbm, ⟨45, _⟩ => ⟨S65536x2, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_cst : Ref sig .tc := ⟨.hbm, 32, rfl⟩
abbrev main_call0_v0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call1_cst : Ref sig .tc := ⟨.hbm, 39, rfl⟩
abbrev main_call1_v0 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]

class Facts₀ : Prop where
  reducesTo_S65536x256_S65536_d1 : S65536x256.ReducesTo [1] S65536
  h_S_ : 0 < S_.numel
  bcast_S65536_S65536x1_0 : S65536.BroadcastsInDim S65536x1 (![0] : Fin 1 → Fin S65536x1.rank)
  reducesTo_S1024x256_S1024_d1 : S1024x256.ReducesTo [1] S1024
  bcast_S1024_S1x1024_1 : S1024.BroadcastsInDim S1x1024 (![1] : Fin 1 → Fin S1x1024.rank)
  bcast_S65536x1_S65536x1024_0_1 : S65536x1.BroadcastsInDim S65536x1024 (![0, 1] : Fin 2 → Fin S65536x1024.rank)
  bcast_S1x1024_S65536x1024_0_1 : S1x1024.BroadcastsInDim S65536x1024 (![0, 1] : Fin 2 → Fin S65536x1024.rank)
  bcast_S_S65536x1024 : S_.BroadcastsInDim S65536x1024 (![] : Fin 0 → Fin S65536x1024.rank)
  bcast_S2_S1x2_1 : S2.BroadcastsInDim S1x2 (![1] : Fin 1 → Fin S1x2.rank)
  bcast_S1x2_S65536x2_0_1 : S1x2.BroadcastsInDim S65536x2 (![0, 1] : Fin 2 → Fin S65536x2.rank)
  dot_S65536x256_S1024x256_S65536x1024_1_1_0_0_n_n_wf : DotDims.WF S65536x256 S1024x256 S65536x1024 [1] [1] [0] [0] [] []
  dot_S65536x1024_S1024x1024_S65536x1024_1_1_0_0_n_n_wf : DotDims.WF S65536x1024 S1024x1024 S65536x1024 [1] [1] [0] [0] [] []
  dot_S65536x1024_S2x1024_S65536x2_1_1_0_0_n_n_wf : DotDims.WF S65536x1024 S2x1024 S65536x2 [1] [1] [0] [0] [] []

variable [Facts₀]

def dot_S65536x256_S1024x256_S65536x1024_1_1_0_0_n_n : DotDims S65536x256 S1024x256 S65536x1024 where
  lhsContracting := [1]
  rhsContracting := [1]
  lhsNonContracting := [0]
  rhsNonContracting := [0]
  lhsBatch := []
  rhsBatch := []
  wf := dot_S65536x256_S1024x256_S65536x1024_1_1_0_0_n_n_wf
def dot_S65536x1024_S1024x1024_S65536x1024_1_1_0_0_n_n : DotDims S65536x1024 S1024x1024 S65536x1024 where
  lhsContracting := [1]
  rhsContracting := [1]
  lhsNonContracting := [0]
  rhsNonContracting := [0]
  lhsBatch := []
  rhsBatch := []
  wf := dot_S65536x1024_S1024x1024_S65536x1024_1_1_0_0_n_n_wf
def dot_S65536x1024_S2x1024_S65536x2_1_1_0_0_n_n : DotDims S65536x1024 S2x1024 S65536x2 where
  lhsContracting := [1]
  rhsContracting := [1]
  lhsNonContracting := [0]
  rhsNonContracting := [0]
  lhsBatch := []
  rhsBatch := []
  wf := dot_S65536x1024_S2x1024_S65536x2_1_1_0_0_n_n_wf

class Facts : Prop extends Facts₀ where

variable [Facts]
-- ==== Proof.RbfSpec.lean ====
/-
  The function both programs compute, one row of the batch at a time, on the extended reals.

  A row `xr` of the batch (256 numbers) is compared with each of the 1024 centres `sv s` through the expanded squared
  distance `(Σ_f xr_f² + s2_s) - 2 · Σ_f xr_f · sv_{s,f}` (`s2 s` the squared norm of centre `s`), scaled by `-1/256` and
  exponentiated: the radial feature `feat`. Two dense layers follow, each `max (Σ_s h_s · w_{o,s} + b_o) 0` (`hidden`), and
  a two-logit head `Σ_s h_s · wh_{c,s} + bh_c` (`rowOut`). The three float words of the body (`-1/256`, `2`, and the
  zero the rectifier compares with) stay bit patterns: both programs write the same words, so none is evaluated except
  the zero, which is the extended real `0`.

  Output row `b` depends on row `b` of the batch only; this is what lets a block of 1024 rows be computed on its own.
-/
import Idealize.ShloMosaic.PureOps.Ideal
import Idealize.ShloMosaic.PureOps.Ideal.Laws
import Idealize.ShloMosaic.Lib.ValueIdx

noncomputable section

open scoped BigOperators

namespace Cert.RbfMlp

open Idealize.ShloMosaic Idealize.ShloMosaic.ValueIdx

/-- The radial feature of the row `xr` at centre `s`: `exp (-1/256 · ((|xr|² + s2 s) - 2 · ⟨xr, sv s⟩))`. -/
def feat (xr : Fin 256 → EReal) (sv : Fin 1024 → Fin 256 → EReal) (s2 : Fin 1024 → EReal) (s : Fin 1024) : EReal :=
  Ideal.exp (Ideal.ofBits .f32 0xBB800000#32 *
    (((∑ f : Fin 256, xr f * xr f) + s2 s) - Ideal.ofBits .f32 0x40000000#32 * ∑ f : Fin 256, xr f * sv s f))

/-- One rectified dense layer at output unit `o`: `max (Σ_s h s · w o s + b o) 0`. -/
def hidden (h : Fin 1024 → EReal) (w : Fin 1024 → Fin 1024 → EReal) (b : Fin 1024 → EReal) (o : Fin 1024) : EReal :=
  max ((∑ s : Fin 1024, h s * w o s) + b o) 0

/-- Logit `c` of one row: the head over two rectified layers over the radial features. -/
def rowOut (xr : Fin 256 → EReal) (sv : Fin 1024 → Fin 256 → EReal) (s2 : Fin 1024 → EReal)
    (w1 : Fin 1024 → Fin 1024 → EReal) (b1 : Fin 1024 → EReal) (w2 : Fin 1024 → Fin 1024 → EReal) (b2 : Fin 1024 → EReal)
    (wh : Fin 2 → Fin 1024 → EReal) (bh : Fin 2 → EReal) (c : Fin 2) : EReal :=
  (∑ s : Fin 1024, hidden (hidden (feat xr sv s2) w1 b1) w2 b2 s * wh c s) + bh c

/-- The squared norm of each centre, `Σ_f sv_{s,f}²`. -/
def sqNorm (sv : (⟨2, ![1024, 256]⟩ : Shape).Idx → EReal) (s : Fin 1024) : EReal :=
  ∑ f : Fin 256, sv (ix2 s f) * sv (ix2 s f)

/-- The whole result, [65536, 2], as one function of the eight argument arrays: row `b` is `rowOut` of row `b` of `x`. -/
def G (x : (⟨2, ![65536, 256]⟩ : Shape).Idx → EReal) (sv : (⟨2, ![1024, 256]⟩ : Shape).Idx → EReal)
    (w1 : (⟨2, ![1024, 1024]⟩ : Shape).Idx → EReal) (b1 : (⟨1, ![1024]⟩ : Shape).Idx → EReal)
    (w2 : (⟨2, ![1024, 1024]⟩ : Shape).Idx → EReal) (b2 : (⟨1, ![1024]⟩ : Shape).Idx → EReal)
    (wh : (⟨2, ![2, 1024]⟩ : Shape).Idx → EReal) (bh : (⟨1, ![2]⟩ : Shape).Idx → EReal) :
    (⟨2, ![65536, 2]⟩ : Shape).Idx → EReal := fun i =>
  rowOut (fun f => x (ix2 (i 0) f)) (fun s f => sv (ix2 s f)) (sqNorm sv) (fun o s => w1 (ix2 o s)) (fun o => b1 (ix1 o))
    (fun o s => w2 (ix2 o s)) (fun o => b2 (ix1 o)) (fun c s => wh (ix2 c s)) (fun c => bh (ix1 c)) (i 1)

end Cert.RbfMlp

end
-- ==== Proof.RefIsSpec.lean ====
/-
  The reference program computes the specification.

  Its generated stages are read at a pair of coordinates, innermost first: the row's squared norm and each centre's (two
  host sums, each starting from the zero word, which is `0`), the cross term (a contraction over the 256 features of row
  `b` of `x` against row `s` of `sv`), the radial feature, the two rectified layers (contractions over 1024 units against
  row `o` of the weight matrix, the bias broadcast along the batch) and the head. Every index the stages compose is a
  pair of the coordinates it was built from.
-/
import proofs.«118942_j65481071405965_2_alg».proof.Proof.Gen.ReferenceIdeal.Read
import proofs.«118942_j65481071405965_2_alg».proof.Proof.RbfSpec

noncomputable section

open scoped BigOperators

namespace Cert.ReferenceIdeal.RefValue

open Cert.ReferenceIdeal Cert.ReferenceIdeal.Read Idealize.ShloMosaic Idealize.ShloMosaic.ValueIdx Cert.RbfMlp

variable (x0 : (⟨S65536x256, .f32⟩ : BufTy).Contents (Elt Ideal)) (x1 : (⟨S1024x256, .f32⟩ : BufTy).Contents (Elt Ideal))
  (x2 : (⟨S1024x1024, .f32⟩ : BufTy).Contents (Elt Ideal)) (x3 : (⟨S1024, .f32⟩ : BufTy).Contents (Elt Ideal))
  (x4 : (⟨S1024x1024, .f32⟩ : BufTy).Contents (Elt Ideal)) (x5 : (⟨S1024, .f32⟩ : BufTy).Contents (Elt Ideal))
  (x6 : (⟨S2x1024, .f32⟩ : BufTy).Contents (Elt Ideal)) (x7 : (⟨S2, .f32⟩ : BufTy).Contents (Elt Ideal))

/-- The squared norm of row `b` of `x`, broadcast along the centres. -/
theorem rowSq_at (b : Fin 65536) (s : Fin 1024) :
    val_main_v6 (F := Ideal) x0 (ix2 b s) = ∑ f : Fin 256, x0 (ix2 b f) * x0 (ix2 b f) := by
  rw [val_main_v6_apply, val_main_v2_apply, val_main_v1_apply, val_main_cst_apply, Ideal.ofBits_def, Ideal.ofBits_zero_f32, zero_add]
  refine Finset.sum_congr rfl fun k _ => ?_
  exact congrArg (fun j => x0 j * x0 j) (funext fun a => Fin.ext (by match a with | ⟨0, _⟩ => rfl | ⟨1, _⟩ => rfl))

/-- The squared norm of centre `s`, broadcast along the batch. -/
theorem centreSq_at (b : Fin 65536) (s : Fin 1024) :
    val_main_v7 (F := Ideal) x1 (ix2 b s) = sqNorm x1 s := by
  rw [val_main_v7_apply, val_main_v5_apply, val_main_v4_apply, val_main_cst_0_apply, Ideal.ofBits_def, Ideal.ofBits_zero_f32, zero_add]
  unfold sqNorm
  refine Finset.sum_congr rfl fun k _ => ?_
  exact congrArg (fun j => x1 j * x1 j) (funext fun a => Fin.ext (by match a with | ⟨0, _⟩ => rfl | ⟨1, _⟩ => rfl))

/-- The cross term: row `b` of `x` against centre `s`. -/
theorem cross_at (b : Fin 65536) (s : Fin 1024) :
    val_main_v9 (F := Ideal) x0 x1 (ix2 b s) = ∑ f : Fin 256, x0 (ix2 b f) * x1 (ix2 s f) := by
  rw [val_main_v9_apply]
  refine Finset.sum_congr rfl fun k _ => ?_
  have el : lidx_main_v9 (ix2 b s) k = ix2 b k := funext fun a => Fin.ext (by match a with | ⟨0, _⟩ => rfl | ⟨1, _⟩ => rfl)
  have er : ridx_main_v9 (ix2 b s) k = ix2 s k := funext fun a => Fin.ext (by match a with | ⟨0, _⟩ => rfl | ⟨1, _⟩ => rfl)
  rw [el, er]

/-- The radial feature of row `b` at centre `s`. -/
theorem feat_at (b : Fin 65536) (s : Fin 1024) :
    val_main_v15 (F := Ideal) x0 x1 (ix2 b s)
      = feat (fun f => x0 (ix2 b f)) (fun s f => x1 (ix2 s f)) (sqNorm x1) s := by
  rw [val_main_v15_apply, val_main_v14_apply, val_main_v13_apply, val_main_cst_2_apply, val_main_v12_apply, val_main_v8_apply,
    rowSq_at, centreSq_at, val_main_v11_apply, val_main_v10_apply, val_main_cst_1_apply, cross_at]
  rfl

/-- The first rectified layer at row `b`, unit `o`. -/
theorem hidden1_at (b : Fin 65536) (o : Fin 1024) :
    val_main_v20 (F := Ideal) x0 x1 x2 x3 (ix2 b o)
      = hidden (feat (fun f => x0 (ix2 b f)) (fun s f => x1 (ix2 s f)) (sqNorm x1)) (fun o s => x2 (ix2 o s)) (fun o => x3 (ix1 o)) o := by
  rw [val_main_v20_apply, val_main_v19_apply, val_main_v16_apply, val_main_v18_apply, val_main_v17_apply, val_main_call0_v0_apply,
    val_main_call0_cst_apply, Ideal.ofBits_def, Ideal.ofBits_zero_f32]
  have el : ∀ k : Fin 1024, lidx_main_v16 (ix2 b o) k = ix2 b k := fun k =>
    funext fun a => Fin.ext (by match a with | ⟨0, _⟩ => rfl | ⟨1, _⟩ => rfl)
  have er : ∀ k : Fin 1024, ridx_main_v16 (ix2 b o) k = ix2 o k := fun k =>
    funext fun a => Fin.ext (by match a with | ⟨0, _⟩ => rfl | ⟨1, _⟩ => rfl)
  have eb : idx_main_v17 (idx_main_v18 (ix2 b o)) = ix1 o := funext fun a => Fin.ext (by match a with | ⟨0, _⟩ => rfl)
  rw [eb, Finset.sum_congr rfl (fun k _ => by rw [el k, er k, feat_at])]
  rfl

/-- The second rectified layer at row `b`, unit `o`. -/
theorem hidden2_at (b : Fin 65536) (o : Fin 1024) :
    val_main_v25 (F := Ideal) x0 x1 x2 x3 x4 x5 (ix2 b o)
      = hidden (hidden (feat (fun f => x0 (ix2 b f)) (fun s f => x1 (ix2 s f)) (sqNorm x1)) (fun o s => x2 (ix2 o s)) (fun o => x3 (ix1 o)))
          (fun o s => x4 (ix2 o s)) (fun o => x5 (ix1 o)) o := by
  rw [val_main_v25_apply, val_main_v24_apply, val_main_v21_apply, val_main_v23_apply, val_main_v22_apply, val_main_call1_v0_apply,
    val_main_call1_cst_apply, Ideal.ofBits_def, Ideal.ofBits_zero_f32]
  have el : ∀ k : Fin 1024, lidx_main_v21 (ix2 b o) k = ix2 b k := fun k =>
    funext fun a => Fin.ext (by match a with | ⟨0, _⟩ => rfl | ⟨1, _⟩ => rfl)
  have er : ∀ k : Fin 1024, ridx_main_v21 (ix2 b o) k = ix2 o k := fun k =>
    funext fun a => Fin.ext (by match a with | ⟨0, _⟩ => rfl | ⟨1, _⟩ => rfl)
  have eb : idx_main_v22 (idx_main_v23 (ix2 b o)) = ix1 o := funext fun a => Fin.ext (by match a with | ⟨0, _⟩ => rfl)
  rw [eb, Finset.sum_congr rfl (fun k _ => by rw [el k, er k, hidden1_at])]
  rfl

/-- The head at row `b`, logit `c`. -/
theorem out_at (b : Fin 65536) (c : Fin 2) :
    val_main_v29 (F := Ideal) x0 x1 x2 x3 x4 x5 x6 x7 (ix2 b c) = G x0 x1 x2 x3 x4 x5 x6 x7 (ix2 b c) := by
  rw [val_main_v29_apply, val_main_v26_apply, val_main_v28_apply, val_main_v27_apply]
  have el : ∀ k : Fin 1024, lidx_main_v26 (ix2 b c) k = ix2 b k := fun k =>
    funext fun a => Fin.ext (by match a with | ⟨0, _⟩ => rfl | ⟨1, _⟩ => rfl)
  have er : ∀ k : Fin 1024, ridx_main_v26 (ix2 b c) k = ix2 c k := fun k =>
    funext fun a => Fin.ext (by match a with | ⟨0, _⟩ => rfl | ⟨1, _⟩ => rfl)
  have eb : idx_main_v27 (idx_main_v28 (ix2 b c)) = ix1 c := funext fun a => Fin.ext (by match a with | ⟨0, _⟩ => rfl)
  rw [eb, Finset.sum_congr rfl (fun k _ => by rw [el k, er k, hidden2_at])]
  rfl

/-- The reference's result array is the specification of its eight arguments. -/
theorem ref_eq : val_main_v29 (F := Ideal) x0 x1 x2 x3 x4 x5 x6 x7 = G x0 x1 x2 x3 x4 x5 x6 x7 := by
  funext i
  obtain ⟨b, c, rfl⟩ : ∃ (b : Fin 65536) (c : Fin 2), i = ix2 b c := ⟨i 0, i 1, eq_ix2 i⟩
  exact out_at x0 x1 x2 x3 x4 x5 x6 x7 b c

end Cert.ReferenceIdeal.RefValue

end
-- ==== Proof.LibPlainMatmul.lean ====
/-
  A plain matrix product read at an index, at the ideal values.

  For the dimension numbers of an `M x K` by `K x N` product (contract the left operand's axis 1 with the right
  operand's axis 0, no batch axis), a product accumulated into the zero splat is, at row `r` and column `q`, the
  sum over `k : Fin K` of `a (r, k) * b (k, q)` on the extended reals: no rounding, no chunk order, and the
  contraction index is just its one coordinate.
-/
import Idealize.ShloMosaic.Lib.ValueIdx
import Idealize.ShloMosaic.PureOps.Ideal.Laws

namespace PlainMatmul

open Idealize.ShloMosaic Idealize.ShloMosaic.ValueIdx

variable {M K N : ℕ}

/-- The contraction index of a plain product is one coordinate below `K`. -/
noncomputable def kEquiv (M K N : ℕ) : (DotDims.plain M K N).contr.Idx ≃ Fin K :=
  contrEquiv1 (DotDims.plain M K N) K rfl rfl

/-- The left operand is read at (row, contraction coordinate). -/
theorem lhsIdx_plain (r : Fin M) (q : Fin N) (k : Fin K) :
    (DotDims.plain M K N).lhsIdx (ix2 r q) ((kEquiv M K N).symm k) = ix2 r k := by
  funext ax
  apply Fin.ext
  match ax with
  | ⟨0, _⟩ => rfl
  | ⟨1, _⟩ =>
    exact ((DotDims.plain M K N).lhsIdx_val_of_single (cl := 1) rfl (ix2 r q) ((kEquiv M K N).symm k)).trans
      (contrEquiv1_symm_val (DotDims.plain M K N) K rfl rfl k)

/-- The right operand is read at (contraction coordinate, column). -/
theorem rhsIdx_plain (r : Fin M) (q : Fin N) (k : Fin K) :
    (DotDims.plain M K N).rhsIdx (ix2 r q) ((kEquiv M K N).symm k) = ix2 k q := by
  funext ax
  apply Fin.ext
  match ax with
  | ⟨0, _⟩ =>
    exact ((DotDims.plain M K N).rhsIdx_val_of_single (cr := 0) rfl (ix2 r q) ((kEquiv M K N).symm k)).trans
      (contrEquiv1_symm_val (DotDims.plain M K N) K rfl rfl k)
  | ⟨1, _⟩ => rfl

/-- A plain product into the zero splat, at an index. -/
theorem matmul_zero_apply {φ₁ φ₂ : FTy} (prec : Option ContractPrecision)
    (a : FVec Ideal ⟨2, ![M, K]⟩ φ₁) (b : FVec Ideal ⟨2, ![K, N]⟩ φ₂) (r : Fin M) (q : Fin N) :
    FloatOps.matmul (DotDims.plain M K N) prec a b (constant ⟨2, ![M, N]⟩ .f32 0x00000000#32) (ix2 r q)
      = ∑ k : Fin K, a (ix2 r k) * b (ix2 k q) := by
  rw [Ideal.matmul_constant_zero_apply]
  rw [← Equiv.sum_comp (kEquiv M K N).symm]
  refine Finset.sum_congr rfl fun k _ => ?_
  rw [lhsIdx_plain, rhsIdx_plain]

end PlainMatmul
-- ==== Proof.BlockValue.lean ====
/-
  What the kernel's body computes from the blocks it loads, read at a row `p` of the block and a column.

  The body is cut into four stages, each a literal piece of the printed body, and the two generated payloads are their
  composition. Read at coordinates: the radial features of row `p` (a lane sum of squares kept as a column and
  broadcast along the centres, the centres' squared norms broadcast along the rows, and a plain product of the block
  with the transposed centres); a dense stage (a plain product with a transposed weight matrix plus a bias row
  broadcast along the rows); the rectifier; the head. A change of float format is the identity on the extended reals, a
  shape cast to the same shape is the identity, and every plain product into the zero splat is a sum over its one
  contraction coordinate. Put together, entry `(p, c)` of the stored block is `rowOut` of row `p` of the loaded batch
  block, with every weight read through its transpose.
-/
import proofs.«118942_j65481071405965_2_alg».proof.Proof.Gen.KernelIdeal.Skeleton
import proofs.«118942_j65481071405965_2_alg».proof.Proof.RbfSpec
import proofs.«118942_j65481071405965_2_alg».proof.Proof.LibPlainMatmul
import Idealize.ShloMosaic.Lib.ValueLayout
import Idealize.ShloMosaic.Lib.Pipeline.Value

noncomputable section

open scoped BigOperators

namespace Cert.KernelIdeal.BlockValue

open Cert.KernelIdeal Cert.KernelIdeal.Gen Idealize.ShloMosaic Idealize.ShloMosaic.ValueIdx Cert.RbfMlp

/-! ## Column forms of the layout operations -/

/-- An `[a]` array cast to a column `[a, 1]` reads, at `(i, u)`, the operand at `i`. -/
theorem shapeCast_col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of a `[1024, 256]` block, at row `p`: the sum over the 256 lanes of that row. -/
theorem rowSum_apply (src : FVec Ideal S1024x256 .f32) (h : S1024x256.Reduces [1] S1024) (hφ : FKind.Formats .f32)
    (hacc : (0x00000000#32 : BitVec 32) = 0x00000000#32) (p : Fin 1024) :
    multiReduction .add [1] S1024 src 0x00000000#32 h hφ hacc (ix1 p) = ∑ k : Fin 256, src (ix2 p k) := by
  refine (Ideal.multiReduction_add_single src 0x00000000#32 h hφ hacc (ix1 p)).trans ?_
  refine Finset.sum_congr rfl fun k _ => congrArg src (funext fun a => Fin.ext ?_)
  match a with
  | ⟨0, _⟩ => rfl
  | ⟨1, _⟩ => rfl

/-! ## The body's stages -/

/-- Statements 1–19 of the body: the radial features of the block's rows. -/
def blkFeat (x0 : Vec Ideal S1024x256 .f32) (x1 : Vec Ideal S256x1024 .bf16) (x2 : Vec Ideal S1x1024 .f32) : FVec Ideal S1024x1024 .f32 :=
  exp (mulf (broadcast S1024x1024 (Scalar.ofBits .f32 0xBB800000#32))
    (subf
      (addf
        (broadcastTo S1024x1024 (shapeCast S1024x1 (multiReduction .add [1] S1024 (mulf x0 x0) 0x00000000#32 reduces_S1024x256_S1024 (.inl rfl) rfl) shapeCasts_S1024_S1024x1) broadcasts_S1024x1_S1024x1024)
        (broadcastTo S1024x1024 (shapeCast S1x1024 x2 shapeCasts_S1x1024_S1x1024 : FVec Ideal S1x1024 .f32) broadcasts_S1x1024_S1024x1024))
      (mulf (broadcast S1024x1024 (Scalar.ofBits .f32 0x40000000#32))
        (matmul dot_S1024x256_S256x1024_S1024x1024_1_0_0_1_n_n none (truncf .bf16 x0 bitsLt_bf16_f32 : FVec Ideal S1024x256 .bf16)
          (shapeCast S256x1024 x1 shapeCasts_S256x1024_S256x1024 : FVec Ideal S256x1024 .bf16) (constant S1024x1024 .f32 0x00000000#32)))))

/-- A dense stage: the activations in the narrow format times a loaded weight block, plus a loaded bias row. -/
def blkDense (h : FVec Ideal S1024x1024 .f32) (w : Vec Ideal S1024x1024 .bf16) (b : Vec Ideal S1x1024 .f32) : FVec Ideal S1024x1024 .f32 :=
  addf (matmul dot_S1024x1024_S1024x1024_S1024x1024_1_0_0_1_n_n none (truncf .bf16 h bitsLt_bf16_f32 : FVec Ideal S1024x1024 .bf16)
      (shapeCast S1024x1024 w shapeCasts_S1024x1024_S1024x1024 : FVec Ideal S1024x1024 .bf16) (constant S1024x1024 .f32 0x00000000#32))
    (broadcastTo S1024x1024 (shapeCast S1x1024 b shapeCasts_S1x1024_S1x1024 : FVec Ideal S1x1024 .f32) broadcasts_S1x1024_S1024x1024)

/-- The rectifier against a scalar splat. -/
def blkRelu (h : FVec Ideal S1024x1024 .f32) (z : Ideal .f32) : FVec Ideal S1024x1024 .f32 :=
  maximumf h (broadcast S1024x1024 z)

/-- The head: rectified activations times the loaded head block, plus the loaded head bias row. -/
def blkHead (h : FVec Ideal S1024x1024 .f32) (w : Vec Ideal S1024x2 .bf16) (b : Vec Ideal S1x2 .f32) : FVec Ideal S1024x2 .f32 :=
  addf (matmul dot_S1024x1024_S1024x2_S1024x2_1_0_0_1_n_n none (truncf .bf16 h bitsLt_bf16_f32 : FVec Ideal S1024x1024 .bf16)
      (shapeCast S1024x2 w shapeCasts_S1024x2_S1024x2 : FVec Ideal S1024x2 .bf16) (constant S1024x2 .f32 0x00000000#32))
    (broadcastTo S1024x2 (shapeCast S1x2 b shapeCasts_S1x2_S1x2 : FVec Ideal S1x2 .f32) broadcasts_S1x2_S1024x2)

/-- The first payload is the second dense stage over the rectified first over the features. -/
theorem pay2_eq (x0 : Vec Ideal S1024x256 .f32) (x1 : Vec Ideal S256x1024 .bf16) (x2 : Vec Ideal S1x1024 .f32)
    (x3 : Vec Ideal S1024x1024 .bf16) (x4 : Vec Ideal S1x1024 .f32) (x5 : Vec Ideal S1024x1024 .bf16) (x6 : Vec Ideal S1x1024 .f32) :
    k0_pay2 x0 x1 x2 x3 x4 x5 x6
      = blkDense (blkRelu (blkDense (blkFeat x0 x1 x2) x3 x4) (Scalar.ofBits .f32 0x00000000#32)) x5 x6 := rfl

/-- The stored payload is the head over the rectified first payload. -/
theorem pay1_eq (v36 : FVec Ideal S1024x1024 .f32) (z : Ideal .f32) (x7 : Vec Ideal S1024x2 .bf16) (x8 : Vec Ideal S1x2 .f32) :
    k0_pay1 v36 z x7 x8 = blkHead (blkRelu v36 z) x7 x8 := rfl

/-! ## The stages at coordinates -/

/-- The elementwise exponential at an index. -/
theorem exp_at {s : Shape} {φ : FTy} (x : FVec Ideal s φ) (i : s.Idx) : exp x i = Ideal.exp (x i) := rfl

/-- The radial features of the block at row `p`, centre `s`: the centres are read through their transpose. -/
theorem blkFeat_at (x0 : Vec Ideal S1024x256 .f32) (x1 : Vec Ideal S256x1024 .bf16) (x2 : Vec Ideal S1x1024 .f32) (p s : Fin 1024) :
    blkFeat x0 x1 x2 (ix2 p s)
      = feat (fun f => x0 (ix2 p f)) (fun s f => x1 (ix2 f s)) (fun s => x2 (ix2 (0 : Fin 1) s)) s := by
  have hm : matmul dot_S1024x256_S256x1024_S1024x1024_1_0_0_1_n_n none (truncf .bf16 x0 bitsLt_bf16_f32 : FVec Ideal S1024x256 .bf16)
      (shapeCast S256x1024 x1 shapeCasts_S256x1024_S256x1024 : FVec Ideal S256x1024 .bf16) (constant S1024x1024 .f32 0x00000000#32) (ix2 p s)
      = ∑ f : Fin 256, x0 (ix2 p f) * x1 (ix2 f s) := by
    rw [shapeCast_self]
    exact PlainMatmul.matmul_zero_apply (M := 1024) (K := 256) (N := 1024) none (truncf .bf16 x0 bitsLt_bf16_f32 : FVec Ideal S1024x256 .bf16) x1 p s
  have hsq : broadcastTo S1024x1024 (shapeCast S1024x1 (multiReduction (F := Ideal) .add [1] S1024 (mulf x0 x0 : FVec Ideal S1024x256 .f32) 0x00000000#32 reduces_S1024x256_S1024 (.inl rfl) rfl) shapeCasts_S1024_S1024x1) broadcasts_S1024x1_S1024x1024 (ix2 p s)
      = ∑ f : Fin 256, x0 (ix2 p f) * x0 (ix2 p f) := by
    refine (broadcastTo_col_apply _ _ p s).trans ((shapeCast_col_apply _ _ p 0).trans ((rowSum_apply (mulf x0 x0 : FVec Ideal S1024x256 .f32) _ _ _ p).trans ?_))
    rfl
  have hc : broadcastTo S1024x1024 (shapeCast S1x1024 x2 shapeCasts_S1x1024_S1x1024 : FVec Ideal S1x1024 .f32) broadcasts_S1x1024_S1024x1024 (ix2 p s)
      = x2 (ix2 (0 : Fin 1) s) := by
    rw [shapeCast_self]
    exact broadcastTo_1b_ab_apply x2 _ p s
  unfold blkFeat feat
  rw [exp_at, mulf_apply, broadcast_apply, subf_apply, addf_apply, hsq, hc, mulf_apply, broadcast_apply, hm]
  rfl

/-- A dense stage at row `p`, unit `o`: the weight block is read through its transpose, the bias from its one row. -/
theorem blkDense_at (h : FVec Ideal S1024x1024 .f32) (w : Vec Ideal S1024x1024 .bf16) (b : Vec Ideal S1x1024 .f32) (p o : Fin 1024) :
    blkDense h w b (ix2 p o) = (∑ s : Fin 1024, h (ix2 p s) * w (ix2 s o)) + b (ix2 (0 : Fin 1) o) := by
  have hm : matmul dot_S1024x1024_S1024x1024_S1024x1024_1_0_0_1_n_n none (truncf .bf16 h bitsLt_bf16_f32 : FVec Ideal S1024x1024 .bf16)
      (shapeCast S1024x1024 w shapeCasts_S1024x1024_S1024x1024 : FVec Ideal S1024x1024 .bf16) (constant S1024x1024 .f32 0x00000000#32) (ix2 p o)
      = ∑ s : Fin 1024, h (ix2 p s) * w (ix2 s o) := by
    rw [shapeCast_self]
    exact PlainMatmul.matmul_zero_apply (M := 1024) (K := 1024) (N := 1024) none (truncf .bf16 h bitsLt_bf16_f32 : FVec Ideal S1024x1024 .bf16) w p o
  have hb : broadcastTo S1024x1024 (shapeCast S1x1024 b shapeCasts_S1x1024_S1x1024 : FVec Ideal S1x1024 .f32) broadcasts_S1x1024_S1024x1024 (ix2 p o)
      = b (ix2 (0 : Fin 1) o) := by
    rw [shapeCast_self]
    exact broadcastTo_1b_ab_apply b _ p o
  unfold blkDense
  rw [addf_apply, hm, hb]

/-- The head at row `p`, logit `c`. -/
theorem blkHead_at (h : FVec Ideal S1024x1024 .f32) (w : Vec Ideal S1024x2 .bf16) (b : Vec Ideal S1x2 .f32) (p : Fin 1024) (c : Fin 2) :
    blkHead h w b (ix2 p c) = (∑ s : Fin 1024, h (ix2 p s) * w (ix2 s c)) + b (ix2 (0 : Fin 1) c) := by
  have hm : matmul dot_S1024x1024_S1024x2_S1024x2_1_0_0_1_n_n none (truncf .bf16 h bitsLt_bf16_f32 : FVec Ideal S1024x1024 .bf16)
      (shapeCast S1024x2 w shapeCasts_S1024x2_S1024x2 : FVec Ideal S1024x2 .bf16) (constant S1024x2 .f32 0x00000000#32) (ix2 p c)
      = ∑ s : Fin 1024, h (ix2 p s) * w (ix2 s c) := by
    rw [shapeCast_self]
    exact PlainMatmul.matmul_zero_apply (M := 1024) (K := 1024) (N := 2) none (truncf .bf16 h bitsLt_bf16_f32 : FVec Ideal S1024x1024 .bf16) w p c
  have hb : broadcastTo S1024x2 (shapeCast S1x2 b shapeCasts_S1x2_S1x2 : FVec Ideal S1x2 .f32) broadcasts_S1x2_S1024x2 (ix2 p c)
      = b (ix2 (0 : Fin 1) c) := by
    rw [shapeCast_self]
    exact broadcastTo_1b_ab_apply b _ p c
  unfold blkHead
  rw [addf_apply, hm, hb]

/-- A rectified dense stage over activations known along row `p` is the specification's layer of them. -/
theorem hiddenStage_at (h : FVec Ideal S1024x1024 .f32) (g : Fin 1024 → EReal) (w : Vec Ideal S1024x1024 .bf16) (b : Vec Ideal S1x1024 .f32)
    (p : Fin 1024) (hg : ∀ s : Fin 1024, h (ix2 p s) = g s) (o : Fin 1024) :
    blkRelu (blkDense h w b) (Scalar.ofBits .f32 0x00000000#32) (ix2 p o)
      = hidden g (fun o s => w (ix2 s o)) (fun o => b (ix2 (0 : Fin 1) o)) o := by
  show max (blkDense h w b (ix2 p o)) (Ideal.ofBits .f32 0x00000000#32) = _
  rw [blkDense_at, Ideal.ofBits_zero_f32, Finset.sum_congr rfl (fun s _ => by rw [hg s])]
  rfl

/-- Entry `(p, c)` of the block the body stores: `rowOut` of row `p` of the loaded batch block, the loaded centres, weights
    and head read through their transposes, the squared norms and biases from their one row. -/
theorem block_at (x0 : Vec Ideal S1024x256 .f32) (x1 : Vec Ideal S256x1024 .bf16) (x2 : Vec Ideal S1x1024 .f32)
    (x3 : Vec Ideal S1024x1024 .bf16) (x4 : Vec Ideal S1x1024 .f32) (x5 : Vec Ideal S1024x1024 .bf16) (x6 : Vec Ideal S1x1024 .f32)
    (x7 : Vec Ideal S1024x2 .bf16) (x8 : Vec Ideal S1x2 .f32) (p : Fin 1024) (c : Fin 2) :
    k0_pay1 (k0_pay2 x0 x1 x2 x3 x4 x5 x6) (Scalar.ofBits .f32 0x00000000#32) x7 x8 (ix2 p c)
      = rowOut (fun f => x0 (ix2 p f)) (fun s f => x1 (ix2 f s)) (fun s => x2 (ix2 (0 : Fin 1) s))
          (fun o s => x3 (ix2 s o)) (fun o => x4 (ix2 (0 : Fin 1) o)) (fun o s => x5 (ix2 s o)) (fun o => x6 (ix2 (0 : Fin 1) o))
          (fun c s => x7 (ix2 s c)) (fun c => x8 (ix2 (0 : Fin 1) c)) c := by
  rw [pay1_eq, pay2_eq, blkHead_at]
  have h1 := hiddenStage_at (blkFeat x0 x1 x2) _ x3 x4 p (fun s => blkFeat_at x0 x1 x2 p s)
  have h2 := hiddenStage_at _ _ x5 x6 p h1
  rw [Finset.sum_congr rfl (fun s _ => by rw [h2 s])]
  rfl

end Cert.KernelIdeal.BlockValue

end
-- ==== Proof.HostArrays.lean ====
/-
  The arrays the region finds, as the host operations before the call leave them, read at coordinates.

  Before the call the host transposes the centres and the three weight matrices (and changes their float format, the
  identity on the extended reals), sums each centre's squares into a `[1, 1024]` row, and reshapes the three bias vectors
  into one-row matrices. So, at coordinates: the transposed arrays read the argument with the coordinates swapped, the
  row of squared norms reads `sqNorm` of the centres (the host sum starts from the zero word, which is `0`), and a
  reshaped bias reads the vector at its column.
-/
import proofs.«118942_j65481071405965_2_alg».proof.Proof.Gen.KernelIdeal.Frame
import proofs.«118942_j65481071405965_2_alg».proof.Proof.RbfSpec
import Idealize.ShloMosaic.Lib.StableHlo.Run
import Idealize.ShloMosaic.Lib.ValueLayout
import Idealize.ShloMosaic.Lib.Pipeline.Value

noncomputable section

open scoped BigOperators

namespace Cert.KernelIdeal.HostArrays

open Cert.KernelIdeal Cert.KernelIdeal.Gen Idealize.ShloMosaic Idealize.ShloMosaic.TcCoe Idealize.SL.Sem
  Idealize.ShloMosaic.StableHlo Idealize.ShloMosaic.ValueIdx Cert.RbfMlp

variable (m : (ℓ : Loc nD τ sig) → Buf (Elt Ideal) ℓ)

/-- A host sum over the 256 columns of a `[1024, 256]` array from the zero word, at row `s`: the sum of that row. -/
theorem hostRowSum_apply (x : FVec Ideal S1024x256 .f32) (h' : S1024x256.ReducesTo [1] S1024) (hS : 0 < S_.numel) (s : Fin 1024) :
    Host.reduceAdd (F := Ideal) x (constant (F := Ideal) S_ .f32 0x00000000#32) h' hS (ix1 s) = ∑ f : Fin 256, x (ix2 s f) := by
  simp only [Host.reduceAdd, Ideal.hostReduceAdd_def]
  rw [Ideal.hostReduceAdd_single h' (by decide), constant_apply, Ideal.ofBits_zero_f32, zero_add]
  refine Finset.sum_congr rfl fun k _ => congrArg x (funext fun a => Fin.ext ?_)
  match a with
  | ⟨0, _⟩ => rfl
  | ⟨1, _⟩ => rfl

/-- The transposed centres at `(f, s)`: centre `s`, feature `f`. -/
theorem centresT_at (c : Dev nD) (f : Fin 256) (s : Fin 1024) :
    (V m c main_v1 : S256x1024.Idx → EReal) (ix2 f s) = (m ((c : Thread nD τ).loc main_arg1) : S1024x256.Idx → EReal) (ix2 s f) := by
  have e : (V m c main_v1 : S256x1024.Idx → EReal)
      = truncf (F := Ideal) .bf16 (transpose S256x1024 [1, 0] (m ((c : Thread nD τ).loc main_arg1) : FVec Ideal S1024x256 .f32) transposes_S1024x256_S256x1024_1_0) bitsLt_bf16_f32 := by
    dsimp only [V, hostOps0]; after_results <;> rfl
  rw [e]
  exact transpose_ix2_apply _ _ f s

/-- The row of the centres' squared norms at column `s`. -/
theorem centreSq_at (c : Dev nD) (u : Fin 1) (s : Fin 1024) :
    (V m c main_v4 : S1x1024.Idx → EReal) (ix2 u s) = sqNorm (m ((c : Thread nD τ).loc main_arg1) : S1024x256.Idx → EReal) s := by
  have e : (V m c main_v4 : S1x1024.Idx → EReal)
      = shapeCast S1x1024 (Host.reduceAdd (F := Ideal) (mulf (m ((c : Thread nD τ).loc main_arg1) : FVec Ideal S1024x256 .f32) (m ((c : Thread nD τ).loc main_arg1)))
          (constant (F := Ideal) S_ .f32 0x00000000#32) reducesTo_S1024x256_S1024_d1 h_S_) shapeCasts_S1024_S1x1024 := by
    dsimp only [V, hostOps0]; after_results <;> rfl
  rw [e, shapeCast_a_1a_apply, hostRowSum_apply]
  rfl

/-- The first layer's transposed weights at `(s, o)`: unit `o`, input `s`. -/
theorem w1T_at (c : Dev nD) (s o : Fin 1024) :
    (V m c main_v6 : S1024x1024.Idx → EReal) (ix2 s o) = (m ((c : Thread nD τ).loc main_arg2) : S1024x1024.Idx → EReal) (ix2 o s) := by
  have e : (V m c main_v6 : S1024x1024.Idx → EReal)
      = truncf (F := Ideal) .bf16 (transpose S1024x1024 [1, 0] (m ((c : Thread nD τ).loc main_arg2) : FVec Ideal S1024x1024 .f32) transposes_S1024x1024_S1024x1024_1_0) bitsLt_bf16_f32 := by
    dsimp only [V, hostOps0]; after_results <;> rfl
  rw [e]
  exact transpose_ix2_apply _ _ s o

/-- The second layer's transposed weights at `(s, o)`. -/
theorem w2T_at (c : Dev nD) (s o : Fin 1024) :
    (V m c main_v8 : S1024x1024.Idx → EReal) (ix2 s o) = (m ((c : Thread nD τ).loc main_arg4) : S1024x1024.Idx → EReal) (ix2 o s) := by
  have e : (V m c main_v8 : S1024x1024.Idx → EReal)
      = truncf (F := Ideal) .bf16 (transpose S1024x1024 [1, 0] (m ((c : Thread nD τ).loc main_arg4) : FVec Ideal S1024x1024 .f32) transposes_S1024x1024_S1024x1024_1_0) bitsLt_bf16_f32 := by
    dsimp only [V, hostOps0]; after_results <;> rfl
  rw [e]
  exact transpose_ix2_apply _ _ s o

/-- The transposed head at `(s, k)`: logit `k`, input `s`. -/
theorem whT_at (c : Dev nD) (s : Fin 1024) (k : Fin 2) :
    (V m c main_v10 : S1024x2.Idx → EReal) (ix2 s k) = (m ((c : Thread nD τ).loc main_arg6) : S2x1024.Idx → EReal) (ix2 k s) := by
  have e : (V m c main_v10 : S1024x2.Idx → EReal)
      = truncf (F := Ideal) .bf16 (transpose S1024x2 [1, 0] (m ((c : Thread nD τ).loc main_arg6) : FVec Ideal S2x1024 .f32) transposes_S2x1024_S1024x2_1_0) bitsLt_bf16_f32 := by
    dsimp only [V, hostOps0]; after_results <;> rfl
  rw [e]
  exact transpose_ix2_apply _ _ s k

/-- The first bias as a one-row matrix, at column `o`. -/
theorem b1_at (c : Dev nD) (u : Fin 1) (o : Fin 1024) :
    (V m c main_v11 : S1x1024.Idx → EReal) (ix2 u o) = (m ((c : Thread nD τ).loc main_arg3) : S1024.Idx → EReal) (ix1 o) := by
  have e : (V m c main_v11 : S1x1024.Idx → EReal)
      = shapeCast S1x1024 (m ((c : Thread nD τ).loc main_arg3) : FVec Ideal S1024 .f32) shapeCasts_S1024_S1x1024 := by
    dsimp only [V, hostOps0]; after_results <;> rfl
  rw [e]
  exact shapeCast_a_1a_apply _ _ u o

/-- The second bias as a one-row matrix, at column `o`. -/
theorem b2_at (c : Dev nD) (u : Fin 1) (o : Fin 1024) :
    (V m c main_v12 : S1x1024.Idx → EReal) (ix2 u o) = (m ((c : Thread nD τ).loc main_arg5) : S1024.Idx → EReal) (ix1 o) := by
  have e : (V m c main_v12 : S1x1024.Idx → EReal)
      = shapeCast S1x1024 (m ((c : Thread nD τ).loc main_arg5) : FVec Ideal S1024 .f32) shapeCasts_S1024_S1x1024 := by
    dsimp only [V, hostOps0]; after_results <;> rfl
  rw [e]
  exact shapeCast_a_1a_apply _ _ u o

/-- The head bias as a one-row matrix, at column `k`. -/
theorem bh_at (c : Dev nD) (u : Fin 1) (k : Fin 2) :
    (V m c main_v13 : S1x2.Idx → EReal) (ix2 u k) = (m ((c : Thread nD τ).loc main_arg7) : S2.Idx → EReal) (ix1 k) := by
  have e : (V m c main_v13 : S1x2.Idx → EReal)
      = shapeCast S1x2 (m ((c : Thread nD τ).loc main_arg7) : FVec Ideal S2 .f32) shapeCasts_S2_S1x2 := by
    dsimp only [V, hostOps0]; after_results <;> rfl
  rw [e]
  exact shapeCast_a_1a_apply _ _ u k

end Cert.KernelIdeal.HostArrays

end
-- ==== Proof.KernelValue.lean ====
/-
  The kernel's result array is the specification of its eight arguments.

  Grid point `t` (of 64) loads rows `1024 t … 1024 t + 1023` of the batch; every other input window is one whole array
  (block index `(0, 0)` at every point), written by the host before the call. So the block a point stores is, entry by
  entry, `rowOut` of a batch row and the arguments — block `t` of the specification `G`. The 64 output blocks of 1024 rows
  tile the `[65536, 2]` result (row `r` lies in block `r / 1024`), hence the array ends holding `G`.
-/
import proofs.«118942_j65481071405965_2_alg».proof.Proof.Gen.KernelIdeal.Value
import proofs.«118942_j65481071405965_2_alg».proof.Proof.BlockValue
import proofs.«118942_j65481071405965_2_alg».proof.Proof.HostArrays

noncomputable section

open scoped BigOperators

namespace Cert.KernelIdeal.RunValue

open Cert.KernelIdeal Cert.KernelIdeal.Gen Idealize.ShloMosaic Idealize.ShloMosaic.TcCoe Idealize.SL.Sem
  Idealize.ShloMosaic.ValueIdx Cert.RbfMlp
open Idealize.ShloMosaic.Pipeline (Dat)

variable (m : (ℓ : Loc nD τ sig) → Buf (Elt Ideal) ℓ) (ρ : Dev nD → PrngReg)

theorem zeroOff : (![0, 0] : Fin 2 → Nat) = fun _ => 0 := funext fun a => by fin_cases a <;> rfl

/-- The specification of the argument arrays as core `c` holds them at launch. -/
abbrev spec (c : Dev nD) : S65536x2.Idx → EReal :=
  G (m ((c : Thread nD τ).loc main_arg0) : S65536x256.Idx → EReal) (m ((c : Thread nD τ).loc main_arg1) : S1024x256.Idx → EReal)
    (m ((c : Thread nD τ).loc main_arg2) : S1024x1024.Idx → EReal) (m ((c : Thread nD τ).loc main_arg3) : S1024.Idx → EReal)
    (m ((c : Thread nD τ).loc main_arg4) : S1024x1024.Idx → EReal) (m ((c : Thread nD τ).loc main_arg5) : S1024.Idx → EReal)
    (m ((c : Thread nD τ).loc main_arg6) : S2x1024.Idx → EReal) (m ((c : Thread nD τ).loc main_arg7) : S2.Idx → EReal)

/-- The printed index maps over the 64 points: the batch and the result move one block of rows per point, every other
    window stays at block `(0, 0)`. -/
theorem blockIdx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-! ## Each window's block at a point, read at coordinates -/

/-- The batch block at point `t`: row `p` is row `1024 t + p` of the batch. -/
theorem batchBlk_at (c : Dev nD) (t : Fin cfg0.N) (p : Fin 1024) (f : Fin 256) (k : S65536x256.Idx)
    (hk0 : (k 0).val = 1024 * t.val + p.val) (hk1 : (k 1).val = f.val) :
    (iblk m c 0 t : Vec Ideal S1024x256 .f32) (ix2 p f) = (m ((c : Thread nD τ).loc main_arg0) : S65536x256.Idx → EReal) k := by
  obtain ⟨e0, e1, -⟩ := blockIdx t
  unfold iblk
  rw [View.read_apply]
  show V m c main_arg0 _ = _
  rw [V_main_arg0]
  congr 1
  funext a
  apply Fin.ext
  match a with
  | ⟨0, _⟩ => show win0_0.index t (0 : Fin 2) * 1024 + 1 * p.val = (k 0).val; rw [e0, hk0]; omega
  | ⟨1, _⟩ => show win0_0.index t (1 : Fin 2) * 256 + 1 * f.val = (k 1).val; rw [e1, hk1]; omega

/-- The centres' window is the whole transposed array: at `(f, s)`, centre `s`, feature `f`. -/
theorem centresBlk_at (c : Dev nD) (t : Fin cfg0.N) (a : Fin 256) (b : Fin 1024) :
    (iblk m c 1 t : Vec Ideal S256x1024 .bf16) (ix2 a b) = (m ((c : Thread nD τ).loc main_arg1) : S1024x256.Idx → EReal) (ix2 b a) := by
  obtain ⟨-, -, e0, e1, -⟩ := blockIdx t
  unfold iblk
  rw [View.read_apply]
  refine (congrArg (V m c main_v1 : S256x1024.Idx → EReal) (funext fun ax => Fin.ext ?_)).trans (HostArrays.centresT_at m c a b)
  match ax with
  | ⟨0, _⟩ => show win0_1.index t (0 : Fin 2) * 256 + 1 * a.val = a.val; rw [e0]; omega
  | ⟨1, _⟩ => show win0_1.index t (1 : Fin 2) * 1024 + 1 * b.val = b.val; rw [e1]; omega

/-- The squared norms' window is the whole one-row array. -/
theorem centreSqBlk_at (c : Dev nD) (t : Fin cfg0.N) (a : Fin 1) (b : Fin 1024) :
    (iblk m c 2 t : Vec Ideal S1x1024 .f32) (ix2 a b) = sqNorm (m ((c : Thread nD τ).loc main_arg1) : S1024x256.Idx → EReal) b := by
  obtain ⟨-, -, -, -, e0, e1, -⟩ := blockIdx t
  unfold iblk
  rw [View.read_apply]
  refine (congrArg (V m c main_v4 : S1x1024.Idx → EReal) (funext fun ax => Fin.ext ?_)).trans (HostArrays.centreSq_at m c a b)
  match ax with
  | ⟨0, _⟩ => show win0_2.index t (0 : Fin 2) * 1 + 1 * a.val = a.val; rw [e0]; omega
  | ⟨1, _⟩ => show win0_2.index t (1 : Fin 2) * 1024 + 1 * b.val = b.val; rw [e1]; omega

/-- The first weights' window is the whole transposed matrix. -/
theorem w1Blk_at (c : Dev nD) (t : Fin cfg0.N) (a : Fin 1024) (b : Fin 1024) :
    (iblk m c 3 t : Vec Ideal S1024x1024 .bf16) (ix2 a b) = (m ((c : Thread nD τ).loc main_arg2) : S1024x1024.Idx → EReal) (ix2 b a) := by
  obtain ⟨-, -, -, -, -, -, e0, e1, -⟩ := blockIdx t
  unfold iblk
  rw [View.read_apply]
  refine (congrArg (V m c main_v6 : S1024x1024.Idx → EReal) (funext fun ax => Fin.ext ?_)).trans (HostArrays.w1T_at m c a b)
  match ax with
  | ⟨0, _⟩ => show win0_3.index t (0 : Fin 2) * 1024 + 1 * a.val = a.val; rw [e0]; omega
  | ⟨1, _⟩ => show win0_3.index t (1 : Fin 2) * 1024 + 1 * b.val = b.val; rw [e1]; omega

/-- The first bias' window is the whole one-row array. -/
theorem b1Blk_at (c : Dev nD) (t : Fin cfg0.N) (a : Fin 1) (b : Fin 1024) :
    (iblk m c 4 t : Vec Ideal S1x1024 .f32) (ix2 a b) = (m ((c : Thread nD τ).loc main_arg3) : S1024.Idx → EReal) (ix1 b) := by
  obtain ⟨-, -, -, -, -, -, -, -, e0, e1, -⟩ := blockIdx t
  unfold iblk
  rw [View.read_apply]
  refine (congrArg (V m c main_v11 : S1x1024.Idx → EReal) (funext fun ax => Fin.ext ?_)).trans (HostArrays.b1_at m c a b)
  match ax with
  | ⟨0, _⟩ => show win0_4.index t (0 : Fin 2) * 1 + 1 * a.val = a.val; rw [e0]; omega
  | ⟨1, _⟩ => show win0_4.index t (1 : Fin 2) * 1024 + 1 * b.val = b.val; rw [e1]; omega

/-- The second weights' window is the whole transposed matrix. -/
theorem w2Blk_at (c : Dev nD) (t : Fin cfg0.N) (a : Fin 1024) (b : Fin 1024) :
    (iblk m c 5 t : Vec Ideal S1024x1024 .bf16) (ix2 a b) = (m ((c : Thread nD τ).loc main_arg4) : S1024x1024.Idx → EReal) (ix2 b a) := by
  obtain ⟨-, -, -, -, -, -, -, -, -, -, e0, e1, -⟩ := blockIdx t
  unfold iblk
  rw [View.read_apply]
  refine (congrArg (V m c main_v8 : S1024x1024.Idx → EReal) (funext fun ax => Fin.ext ?_)).trans (HostArrays.w2T_at m c a b)
  match ax with
  | ⟨0, _⟩ => show win0_5.index t (0 : Fin 2) * 1024 + 1 * a.val = a.val; rw [e0]; omega
  | ⟨1, _⟩ => show win0_5.index t (1 : Fin 2) * 1024 + 1 * b.val = b.val; rw [e1]; omega

/-- The second bias' window is the whole one-row array. -/
theorem b2Blk_at (c : Dev nD) (t : Fin cfg0.N) (a : Fin 1) (b : Fin 1024) :
    (iblk m c 6 t : Vec Ideal S1x1024 .f32) (ix2 a b) = (m ((c : Thread nD τ).loc main_arg5) : S1024.Idx → EReal) (ix1 b) := by
  obtain ⟨-, -, -, -, -, -, -, -, -, -, -, -, e0, e1, -⟩ := blockIdx t
  unfold iblk
  rw [View.read_apply]
  refine (congrArg (V m c main_v12 : S1x1024.Idx → EReal) (funext fun ax => Fin.ext ?_)).trans (HostArrays.b2_at m c a b)
  match ax with
  | ⟨0, _⟩ => show win0_6.index t (0 : Fin 2) * 1 + 1 * a.val = a.val; rw [e0]; omega
  | ⟨1, _⟩ => show win0_6.index t (1 : Fin 2) * 1024 + 1 * b.val = b.val; rw [e1]; omega

/-- The head's window is the whole transposed matrix. -/
theorem headBlk_at (c : Dev nD) (t : Fin cfg0.N) (a : Fin 1024) (b : Fin 2) :
    (iblk m c 7 t : Vec Ideal S1024x2 .bf16) (ix2 a b) = (m ((c : Thread nD τ).loc main_arg6) : S2x1024.Idx → EReal) (ix2 b a) := by
  obtain ⟨-, -, -, -, -, -, -, -, -, -, -, -, -, -, e0, e1, -⟩ := blockIdx t
  unfold iblk
  rw [View.read_apply]
  refine (congrArg (V m c main_v10 : S1024x2.Idx → EReal) (funext fun ax => Fin.ext ?_)).trans (HostArrays.whT_at m c a b)
  match ax with
  | ⟨0, _⟩ => show win0_7.index t (0 : Fin 2) * 1024 + 1 * a.val = a.val; rw [e0]; omega
  | ⟨1, _⟩ => show win0_7.index t (1 : Fin 2) * 2 + 1 * b.val = b.val; rw [e1]; omega

/-- The head bias' window is the whole one-row array. -/
theorem headBiasBlk_at (c : Dev nD) (t : Fin cfg0.N) (a : Fin 1) (b : Fin 2) :
    (iblk m c 8 t : Vec Ideal S1x2 .f32) (ix2 a b) = (m ((c : Thread nD τ).loc main_arg7) : S2.Idx → EReal) (ix1 b) := by
  obtain ⟨-, -, -, -, -, -, -, -, -, -, -, -, -, -, -, -, e0, e1, -⟩ := blockIdx t
  unfold iblk
  rw [View.read_apply]
  refine (congrArg (V m c main_v13 : S1x2.Idx → EReal) (funext fun ax => Fin.ext ?_)).trans (HostArrays.bh_at m c a b)
  match ax with
  | ⟨0, _⟩ => show win0_8.index t (0 : Fin 2) * 1 + 1 * a.val = a.val; rw [e0]; omega
  | ⟨1, _⟩ => show win0_8.index t (1 : Fin 2) * 2 + 1 * b.val = b.val; rw [e1]; omega

/-! ## What a point stores is its block of the specification -/

/-- Blocks that read the arguments as above store, at an entry, the specification at the entry's place in the array. -/
theorem entry_eq (X0 : Vec Ideal S1024x256 .f32) (X1 : Vec Ideal S256x1024 .bf16) (X2 : Vec Ideal S1x1024 .f32)
    (X3 : Vec Ideal S1024x1024 .bf16) (X4 : Vec Ideal S1x1024 .f32) (X5 : Vec Ideal S1024x1024 .bf16) (X6 : Vec Ideal S1x1024 .f32)
    (X7 : Vec Ideal S1024x2 .bf16) (X8 : Vec Ideal S1x2 .f32)
    (A0 : S65536x256.Idx → EReal) (A1 : S1024x256.Idx → EReal) (A2 : S1024x1024.Idx → EReal) (A3 : S1024.Idx → EReal)
    (A4 : S1024x1024.Idx → EReal) (A5 : S1024.Idx → EReal) (A6 : S2x1024.Idx → EReal) (A7 : S2.Idx → EReal)
    (t : ℕ) (ht : t < 64)
    (h0 : ∀ (p : Fin 1024) (f : Fin 256), X0 (ix2 p f) = A0 (ix2 (⟨1024 * t + p.val, by omega⟩ : Fin 65536) f))
    (h1 : ∀ (f : Fin 256) (s : Fin 1024), X1 (ix2 f s) = A1 (ix2 s f))
    (h2 : ∀ s : Fin 1024, X2 (ix2 (0 : Fin 1) s) = sqNorm A1 s)
    (h3 : ∀ s o : Fin 1024, X3 (ix2 s o) = A2 (ix2 o s))
    (h4 : ∀ o : Fin 1024, X4 (ix2 (0 : Fin 1) o) = A3 (ix1 o))
    (h5 : ∀ s o : Fin 1024, X5 (ix2 s o) = A4 (ix2 o s))
    (h6 : ∀ o : Fin 1024, X6 (ix2 (0 : Fin 1) o) = A5 (ix1 o))
    (h7 : ∀ (s : Fin 1024) (k : Fin 2), X7 (ix2 s k) = A6 (ix2 k s))
    (h8 : ∀ k : Fin 2, X8 (ix2 (0 : Fin 1) k) = A7 (ix1 k))
    (y : S1024x2.Idx) (i : S65536x2.Idx) (hi0 : (i 0).val = 1024 * t + (y 0).val) (hi1 : (i 1).val = (y 1).val) :
    k0_pay1 (k0_pay2 X0 X1 X2 X3 X4 X5 X6) (Scalar.ofBits .f32 0x00000000#32) X7 X8 y = G A0 A1 A2 A3 A4 A5 A6 A7 i := by
  obtain ⟨p, k, rfl⟩ : ∃ (p : Fin 1024) (k : Fin 2), y = ix2 p k := ⟨y 0, y 1, eq_ix2 y⟩
  have hi : i = ix2 (⟨1024 * t + p.val, by omega⟩ : Fin 65536) k :=
    funext fun a => Fin.ext (by match a with | ⟨0, _⟩ => exact hi0 | ⟨1, _⟩ => exact hi1)
  rw [hi, BlockValue.block_at]
  have e0 : (fun f => X0 (ix2 p f)) = fun f => A0 (ix2 (⟨1024 * t + p.val, by omega⟩ : Fin 65536) f) := funext fun f => h0 p f
  have e1 : (fun (s : Fin 1024) (f : Fin 256) => X1 (ix2 f s)) = fun s f => A1 (ix2 s f) := funext fun s => funext fun f => h1 f s
  have e2 : (fun s : Fin 1024 => X2 (ix2 (0 : Fin 1) s)) = sqNorm A1 := funext h2
  have e3 : (fun o s : Fin 1024 => X3 (ix2 s o)) = fun o s => A2 (ix2 o s) := funext fun o => funext fun s => h3 s o
  have e4 : (fun o : Fin 1024 => X4 (ix2 (0 : Fin 1) o)) = fun o => A3 (ix1 o) := funext h4
  have e5 : (fun o s : Fin 1024 => X5 (ix2 s o)) = fun o s => A4 (ix2 o s) := funext fun o => funext fun s => h5 s o
  have e6 : (fun o : Fin 1024 => X6 (ix2 (0 : Fin 1) o)) = fun o => A5 (ix1 o) := funext h6
  have e7 : (fun (k : Fin 2) (s : Fin 1024) => X7 (ix2 s k)) = fun k s => A6 (ix2 k s) := funext fun k => funext fun s => h7 s k
  have e8 : (fun k : Fin 2 => X8 (ix2 (0 : Fin 1) k)) = fun k => A7 (ix1 k) := funext h8
  rw [e0, e1, e2, e3, e4, e5, e6, e7, e8]
  rfl

/-- What point `t` writes back is block `t` of the specification. -/
theorem flushed_eq (c : Dev nD) (t : Fin cfg0.N) :
    (dats m 0 c).flushed 9 t = ((cfg0.win 9).blk t).view.read (Elt Ideal) (spec m c) := by
  have hN : cfg0.N = 64 := N_0
  rw [Value.flushed9]
  unfold out0_9
  rw [View.canon_unit_zero zeroOff]
  simp only [View.ld_unit_zero (S := S1024x256) zeroOff, View.ld_unit_zero (S := S256x1024) zeroOff, View.ld_unit_zero (S := S1x1024) zeroOff,
    View.ld_unit_zero (S := S1024x1024) zeroOff, View.ld_unit_zero (S := S1024x2) zeroOff, View.ld_unit_zero (S := S1x2) zeroOff]
  obtain ⟨-, -, -, -, -, -, -, -, -, -, -, -, -, -, -, -, -, -, e0, e1⟩ := blockIdx t
  funext j
  show k0_pay1 (k0_pay2 (iblk m c 0 t) (iblk m c 1 t) (iblk m c 2 t) (iblk m c 3 t) (iblk m c 4 t) (iblk m c 5 t) (iblk m c 6 t))
      (Scalar.ofBits .f32 0x00000000#32) (iblk m c 7 t) (iblk m c 8 t) j = spec m c (((cfg0.win 9).blk t).view.emb j)
  refine entry_eq (iblk m c 0 t) (iblk m c 1 t) (iblk m c 2 t) (iblk m c 3 t) (iblk m c 4 t) (iblk m c 5 t) (iblk m c 6 t) (iblk m c 7 t) (iblk m c 8 t)
    _ _ _ _ _ _ _ _ t.val (by omega)
    (fun p f => batchBlk_at m c t p f _ rfl rfl) (fun f s => centresBlk_at m c t f s) (fun s => centreSqBlk_at m c t 0 s)
    (fun s o => w1Blk_at m c t s o) (fun o => b1Blk_at m c t 0 o) (fun s o => w2Blk_at m c t s o) (fun o => b2Blk_at m c t 0 o)
    (fun s k => headBlk_at m c t s k) (fun k => headBiasBlk_at m c t 0 k) j _ ?_ ?_
  · show win0_9.index t (0 : Fin 2) * 1024 + 1 * (j 0).val = 1024 * t.val + (j 0).val
    rw [e0]; omega
  · show win0_9.index t (1 : Fin 2) * 2 + 1 * (j 1).val = (j 1).val
    rw [e1]; omega

/-- An index of the result lies in point `t`'s block iff each coordinate lies in the block's range on its axis. -/
theorem mem_blk (t : Fin cfg0.N) (i : S65536x2.Idx) :
    i ∈ ((cfg0.win 9).blk t).view.set ↔ ∀ a : Fin 2, win0_9.index t a * S1024x2.size a ≤ (i a).val ∧ (i a).val < win0_9.index t a * S1024x2.size a + S1024x2.size a := by
  show i ∈ ((View.whole main_v14).slice (win0_9.rect t)).set ↔ _
  rw [View.set_slice_whole, Rect.mem_set_unit]
  exact Iff.rfl

/-- Every row of the result lies in some point's block: row `r` in block `r / 1024`. -/
theorem cover (i : S65536x2.Idx) : ∃ t : Fin cfg0.N, (cfg0.win 9).flush t = true ∧ i ∈ ((cfg0.win 9).blk t).view.set := by
  have hN : cfg0.N = 64 := N_0
  have hi0 : (i 0).val < 65536 := (i 0).isLt
  have hi1 : (i 1).val < 2 := (i 1).isLt
  let t : Fin cfg0.N := ⟨(i 0).val / 1024, by omega⟩
  obtain ⟨-, -, -, -, -, -, -, -, -, -, -, -, -, -, -, -, -, -, e0, e1⟩ := blockIdx t
  have ht : t.val = (i 0).val / 1024 := rfl
  refine ⟨t, flush0_9 t, ?_⟩
  rw [mem_blk]
  intro a
  match a with
  | ⟨0, _⟩ => show win0_9.index t (0 : Fin 2) * 1024 ≤ (i 0).val ∧ (i 0).val < win0_9.index t (0 : Fin 2) * 1024 + 1024; rw [e0, ht]; omega
  | ⟨1, _⟩ => show win0_9.index t (1 : Fin 2) * 2 ≤ (i 1).val ∧ (i 1).val < win0_9.index t (1 : Fin 2) * 2 + 2; rw [e1]; omega

/-- The result array after the run is the specification. -/
theorem final (c : Dev nD) : (dats m 0 c).arrAt 9 cfg0.N = spec m c :=
  (dats m 0 c).arrAt_eq_of_cover 9 (spec m c) (fun t _ => flushed_eq m c t) cover

/-- The run, read: the result at the specification of the arguments, the arguments unchanged. -/
theorem run : θ_run defs (onTc (τ := τ) (main (F := Ideal))) ⟨m, fun _ => 0, ρ⟩ fun r => ∀ c : Dev nD,
      r.2.mem ((c : Thread nD τ).loc main_v14) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.RunValue

end
-- ==== Proof.lean ====
/-
  A radial-basis feature map followed by a two-layer rectified network with a two-logit head, computed by a kernel over
  blocks of 1024 batch rows and by a plain array program over the whole batch: the two results are equal as extended
  reals, element by element.

  Both programs compute, for batch row `b` and logit `c`,
      Σ_s max (Σ_s' max (Σ_s'' k(b, s'') · W1[s', s''] + b1[s']) 0 · W2[s, s'] + b2[s]) 0 · Wh[c, s] + bh[c],
      k(b, s) = exp (-1/256 · ((Σ_f x[b,f]² + Σ_f sv[s,f]²) - 2 · Σ_f x[b,f] · sv[s,f])),
  with the same three float words and every sum, difference and maximum taken in the same order of operands. They differ
  in how the arrays are laid out and visited: the kernel receives the centres, the weights and the head transposed (and
  in a narrower float format, which is the identity on the extended reals), the centres' squared norms and the biases
  as one-row matrices, and visits the batch 1024 rows at a time, while the reference contracts each product over the
  second axis of both operands. No algebraic law beyond reading each operation at its coordinates is needed, so the
  finiteness of the inputs is never used.

  `RbfSpec` states the common function `G`; `RefIsSpec` reads the reference's stages as `G`; `BlockValue` reads the body's
  stored block, at a row and a logit, as `G`'s row function of the loaded blocks; `HostArrays` reads the arrays the host
  prepares in terms of the arguments; `KernelValue` puts the 64 stored blocks together into `G` of the arguments. The
  idealization rewrote nothing, so there is nothing to preserve.
-/
import proofs.«118942_j65481071405965_2_alg».proof.Defs
import proofs.«118942_j65481071405965_2_alg».proof.Proof.Gen.Kernel
import proofs.«118942_j65481071405965_2_alg».proof.Proof.Gen.Kernel.Skeleton
import proofs.«118942_j65481071405965_2_alg».proof.Proof.Gen.Kernel.Launch
import proofs.«118942_j65481071405965_2_alg».proof.Proof.Gen.Kernel.Points
import proofs.«118942_j65481071405965_2_alg».proof.Proof.Gen.Kernel.Frame
import proofs.«118942_j65481071405965_2_alg».proof.Proof.Gen.KernelIdeal
import proofs.«118942_j65481071405965_2_alg».proof.Proof.Gen.KernelIdeal.Skeleton
import proofs.«118942_j65481071405965_2_alg».proof.Proof.Gen.KernelIdeal.Launch
import proofs.«118942_j65481071405965_2_alg».proof.Proof.Gen.KernelIdeal.Points
import proofs.«118942_j65481071405965_2_alg».proof.Proof.Gen.KernelIdeal.Frame
import proofs.«118942_j65481071405965_2_alg».proof.Proof.Gen.ReferenceIdeal
import proofs.«118942_j65481071405965_2_alg».proof.Proof.Gen.KernelIdeal.Value
import proofs.«118942_j65481071405965_2_alg».proof.Proof.Gen.ReferenceIdeal.Run
import proofs.«118942_j65481071405965_2_alg».proof.Proof.Gen.ReferenceIdeal.Read
import proofs.«118942_j65481071405965_2_alg».proof.Proof.Gen.Pre_finite_inputs
import proofs.«118942_j65481071405965_2_alg».proof.Proof.RefIsSpec
import proofs.«118942_j65481071405965_2_alg».proof.Proof.KernelValue
import Idealize.ShloMosaic.Adequacy
import Idealize.ShloMosaic.Init

noncomputable section

namespace Cert.Proof

open Idealize.ShloMosaic Idealize.SL.Sem

/-- The word-level kernel runs, faults nowhere and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the eight arguments both programs end with the specification of those arguments in their
    result array: the kernel block by block, the reference stage by stage. -/
theorem algebraic : Cert.algebraic_KernelIdeal_ReferenceIdeal := by
  intro m ρ m' ρ' _ hagree
  refine ⟨fun c => Cert.KernelIdeal.RunValue.spec m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v29_eq, Cert.ReferenceIdeal.RefValue.ref_eq, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
